-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x64 : Shape := ⟨2, ![1600000, 64]⟩
abbrev S100000x64 : Shape := ⟨2, ![100000, 64]⟩
abbrev S1600000 : Shape := ⟨1, ![1600000]⟩
abbrev S192x64 : Shape := ⟨2, ![192, 64]⟩
abbrev S192 : Shape := ⟨1, ![192]⟩
abbrev S_ : Shape := ⟨0, ![]⟩

class Facts : Prop where
  bcast_S_S1600000x64 : S_.BroadcastsInDim S1600000x64 (![] : Fin 0 → Fin S1600000x64.rank)
  reducesTo_S1600000x64_S_d0_1 : S1600000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part1 {F : FTy → Type} [FloatOps F] (main_arg5 : FVec F S192 .f32) (main_arg6 : FVec F S192 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192 .f32 := Host.absf main_arg5
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192 .f32 := Host.absf main_arg6
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  main_v28

def fn {F : FTy → Type} [FloatOps F] (main_arg0 : FVec F S1600000x64 .f32) (main_arg1 : FVec F S100000x64 .f32) (main_arg2 : IVec S1600000 32) (main_arg3 : FVec F S192x64 .f32) (main_arg4 : FVec F S192x64 .f32) (main_arg5 : FVec F S192 .f32) (main_arg6 : FVec F S192 .f32) : IVec S_ 1 :=
  let main_v0 : FVec F S1600000x64 .f32 := Host.absf main_arg0
  let main_cst : FVec F S_ .f32 := constant S_ .f32 0x7F800000#32
  let main_v1 : FVec F S1600000x64 .f32 := broadcastInDim S1600000x64 ![] bcast_S_S1600000x64 main_cst
  let main_v2 : IVec S1600000x64 1 := cmpf .olt main_v0 main_v1
  let main_c : IVec S_ 1 := constantI S_ 1 1#1
  let main_v3 : IVec S_ 1 := (fun x v => Host.reduce IntOp.andi x v reducesTo_S1600000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S192x64 .f32 := Host.absf main_arg3
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S192x64 .f32 := Host.absf main_arg4
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg5 main_arg6 main_v13 main_v16
-- ==== Kernel.lean ====
abbrev S1600000x64 : Shape := ⟨2, ![1600000, 64]⟩
abbrev S100000x64 : Shape := ⟨2, ![100000, 64]⟩
abbrev S1600000 : Shape := ⟨1, ![1600000]⟩
abbrev S192x64 : Shape := ⟨2, ![192, 64]⟩
abbrev S192 : Shape := ⟨1, ![192]⟩
abbrev S_ : Shape := ⟨0, ![]⟩
abbrev S1600000x1 : Shape := ⟨2, ![1600000, 1]⟩
abbrev S64x192 : Shape := ⟨2, ![64, 192]⟩
abbrev S1x192 : Shape := ⟨2, ![1, 192]⟩
abbrev S2000x64 : Shape := ⟨2, ![2000, 64]⟩
abbrev S2000x192 : Shape := ⟨2, ![2000, 192]⟩

abbrev nBuf : Space → Nat
  | .hbm => 16
  | .vmem => 10
  | .smem => 0
  | _ => 0

abbrev bufTy : (tb : Table) → Fin (tcTables nBuf tb) → BufTy
  | .hbm, ⟨0, _⟩ => ⟨S1600000x64, .f32⟩
  | .hbm, ⟨1, _⟩ => ⟨S100000x64, .f32⟩
  | .hbm, ⟨2, _⟩ => ⟨S1600000, .i32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S_, .f32⟩
  | .hbm, ⟨8, _⟩ => ⟨S100000x64, .f32⟩
  | .hbm, ⟨9, _⟩ => ⟨S1600000x1, .i32⟩
  | .hbm, ⟨10, _⟩ => ⟨S100000x64, .f32⟩
  | .hbm, ⟨11, _⟩ => ⟨S64x192, .f32⟩
  | .hbm, ⟨12, _⟩ => ⟨S64x192, .f32⟩
  | .hbm, ⟨13, _⟩ => ⟨S1x192, .f32⟩
  | .hbm, ⟨14, _⟩ => ⟨S1x192, .f32⟩
  | .hbm, ⟨15, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x192, .f32⟩
  | .local _ .vmem, ⟨5, _⟩ => ⟨S64x192, .f32⟩
  | .local _ .vmem, ⟨6, _⟩ => ⟨S1x192, .f32⟩
  | .local _ .vmem, ⟨7, _⟩ => ⟨S1x192, .f32⟩
  | .local _ .vmem, ⟨8, _⟩ => ⟨S2000x64, .f32⟩
  | .local _ .vmem, ⟨9, _⟩ => ⟨S2000x64, .f32⟩
  | _, _ => ⟨S1600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  transposes_S192x64_S64x192_1_0 : S192x64.Transposes [1, 0] S64x192
  shapeCasts_S192_S1x192 : S192.ShapeCasts S1x192
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  scatter_S100000x64_S1600000x1_S1600000x64_1_0_0_1_wf : ScatterDims.WF S100000x64 S1600000x1 S1600000x64 [1] [0] [0] 1
  dot_S2000x64_S64x192_S2000x192_1_0_0_1_n_n_wf : DotDims.WF S2000x64 S64x192 S2000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x192.size a ≤ S64x192.size a
  hwx0_2 : ∀ i : grid0.Coords, EltTy.bits .f32 = 32 ∨ (Rect.block (s := S64x192) S64x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x192.size a ≤ S64x192.size a
  hwx0_3 : ∀ i : grid0.Coords, EltTy.bits .f32 = 32 ∨ (Rect.block (s := S64x192) S64x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x192.size a ≤ S1x192.size a
  hwx0_5 : ∀ i : grid0.Coords, EltTy.bits .f32 = 32 ∨ (Rect.block (s := S1x192) S1x192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf

abbrev win0_0 : Pipeline.Window sig grid0 :=
  Pipeline.Window.ofSpec (Memref.whole main_v2) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1600000x64 : Shape := ⟨2, ![1600000, 64]⟩
abbrev S100000x64 : Shape := ⟨2, ![100000, 64]⟩
abbrev S1600000 : Shape := ⟨1, ![1600000]⟩
abbrev S192x64 : Shape := ⟨2, ![192, 64]⟩
abbrev S192 : Shape := ⟨1, ![192]⟩
abbrev S_ : Shape := ⟨0, ![]⟩
abbrev S1600000x1 : Shape := ⟨2, ![1600000, 1]⟩
abbrev S64x192 : Shape := ⟨2, ![64, 192]⟩
abbrev S100000x192 : Shape := ⟨2, ![100000, 192]⟩
abbrev S1x192 : Shape := ⟨2, ![1, 192]⟩

abbrev nBuf : Space → Nat
  | .hbm => 54
  | .vmem => 0
  | .smem => 0
  | _ => 0

abbrev bufTy : (tb : Table) → Fin (tcTables nBuf tb) → BufTy
  | .hbm, ⟨0, _⟩ => ⟨S1600000x64, .f32⟩
  | .hbm, ⟨1, _⟩ => ⟨S100000x64, .f32⟩
  | .hbm, ⟨2, _⟩ => ⟨S1600000, .i32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S_, .f32⟩
  | .hbm, ⟨8, _⟩ => ⟨S100000x64, .f32⟩
  | .hbm, ⟨9, _⟩ => ⟨S1600000x1, .i32⟩
  | .hbm, ⟨10, _⟩ => ⟨S100000x64, .f32⟩
  | .hbm, ⟨11, _⟩ => ⟨S64x192, .f32⟩
  | .hbm, ⟨12, _⟩ => ⟨S100000x192, .f32⟩
  | .hbm, ⟨13, _⟩ => ⟨S1x192, .f32⟩
  | .hbm, ⟨14, _⟩ => ⟨S100000x192, .f32⟩
  | .hbm, ⟨15, _⟩ => ⟨S100000x192, .f32⟩
  | .hbm, ⟨16, _⟩ => ⟨S64x192, .f32⟩
  | .hbm, ⟨17, _⟩ => ⟨S100000x192, .f32⟩
  | .hbm, ⟨18, _⟩ => ⟨S1x192, .f32⟩
  | .hbm, ⟨19, _⟩ => ⟨S100000x192, .f32⟩
  | .hbm, ⟨20, _⟩ => ⟨S100000x192, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S100000x64, .f32⟩
  | _, _ => ⟨S1600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  scatter_S100000x64_S1600000x1_S1600000x64_1_0_0_1_wf : ScatterDims.WF S100000x64 S1600000x1 S1600000x64 [1] [0] [0] 1
  dot_S100000x64_S64x192_S100000x192_1_0_0_1_n_n_wf : DotDims.WF S100000x64 S64x192 S100000x192 [1] [0] [0] [1] [] []

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.GruCell.lean ====
/-
  The gated-recurrent-unit update that both programs compute, written once as a function of extended reals.

  Per node (row) there is an aggregated message `a` and a hidden state `h`, 64 entries each.  The input weights
  `Wih` and the hidden weights `Whh` are 192 × 64: three 64-row gates stacked (reset, update, new), with biases
  `bih`, `bhh` of 192 entries.  The two pre-activation rows are

      gi c = Σ_k a k · Wih c k + bih c        gh c = Σ_k h k · Whh c k + bhh c          (c < 192)

  and entry `j < 64` of the new hidden state is

      r = σ (gi j + gh j)      z = σ (gi (64 + j) + gh (64 + j))      n = tanh (gi (128 + j) + r · gh (128 + j))
      h' j = (1 − z) · n + z · h j                                    σ x = 1 / (1 + e^(−x)).

  `cell` is the last two lines as a function of the two rows; `preact` is a pre-activation row of a matrix whose
  rows are indexed by `Fin n`; `update` is the whole 100000 × 64 result.  The constant 1 of `1 − z` is kept as the
  f32 word both programs spell; only the logistic function's 1 is ever evaluated (`one_word`).
-/
import Idealize.ShloMosaic.PureOps.Ideal
import Idealize.ShloMosaic.Lib.ValueIdx

noncomputable section

namespace Cert.Gru

open Idealize.ShloMosaic Idealize.ShloMosaic.ValueIdx

/-- The f32 word of `1.0` denotes the real number one. -/
theorem one_word : Ideal.ofBits .f32 0x3F800000#32 = 1 := by
  simp [Ideal.ofBits, Ideal.ieee, -EReal.coe_mul]; norm_num

/-- The logistic function spelled as a quotient with the word `1.0` in both places is the logistic function. -/
theorem logistic_spelled (x : EReal) :
    Ideal.div (Ideal.ofBits .f32 0x3F800000#32) (Ideal.ofBits .f32 0x3F800000#32 + Ideal.exp (-x)) = Ideal.logistic x := by
  rw [one_word]; rfl

/-- Column `o + j` of the 192 stacked gate columns: entry `j` of the gate that starts at column `o`. -/
abbrev col (o : Nat) (ho : o + 64 ≤ 192) (j : Fin 64) : Fin 192 := ⟨o + j.val, by have := j.isLt; omega⟩

/-- Entry `j` of the new hidden state, from the two pre-activation rows and the old entry `h`. -/
def cell (gi gh : Fin 192 → EReal) (h : EReal) (j : Fin 64) : EReal :=
  (Ideal.ofBits .f32 0x3F800000#32 - Ideal.logistic (gi (col 64 (by decide) j) + gh (col 64 (by decide) j)))
      * Ideal.tanh (gi (col 128 (by decide) j)
          + Ideal.logistic (gi (col 0 (by decide) j) + gh (col 0 (by decide) j)) * gh (col 128 (by decide) j))
    + Ideal.logistic (gi (col 64 (by decide) j) + gh (col 64 (by decide) j)) * h

/-- Row `r` of `X · Wᵀ + b`: entry `c` is the inner product of row `r` of `X` with row `c` of `W`, plus `b c`. -/
def preact {n : Nat} (X : (⟨2, ![n, 64]⟩ : Shape).Idx → EReal) (W : (⟨2, ![192, 64]⟩ : Shape).Idx → EReal)
    (b : (⟨1, ![192]⟩ : Shape).Idx → EReal) (r : Fin n) (c : Fin 192) : EReal :=
  (∑ k : Fin 64, X (ix2 r k) * W (ix2 c k)) + b (ix1 c)

/-- The whole updated hidden state: entry `(r, j)` is the cell of row `r`'s two pre-activation rows. -/
def update (A H : (⟨2, ![100000, 64]⟩ : Shape).Idx → EReal) (Wih Whh : (⟨2, ![192, 64]⟩ : Shape).Idx → EReal)
    (bih bhh : (⟨1, ![192]⟩ : Shape).Idx → EReal) : (⟨2, ![100000, 64]⟩ : Shape).Idx → EReal :=
  fun i => cell (preact A Wih bih (i 0)) (preact H Whh bhh (i 0)) (H i) (i 1)

/-- `update` at explicit coordinates. -/
theorem update_ix2 (A H : (⟨2, ![100000, 64]⟩ : Shape).Idx → EReal) (Wih Whh : (⟨2, ![192, 64]⟩ : Shape).Idx → EReal)
    (bih bhh : (⟨1, ![192]⟩ : Shape).Idx → EReal) (r : Fin 100000) (j : Fin 64) :
    update A H Wih Whh bih bhh (ix2 r j) = cell (preact A Wih bih r) (preact H Whh bhh r) (H (ix2 r j)) j := rfl

end Cert.Gru

end
-- ==== Proof.BlockCell.lean ====
/-
  What the kernel body stores, read at one entry of its 2000 × 64 output block.

  The body loads a block `a` of aggregated messages and a block `h` of hidden states (2000 × 64 each), the two
  transposed weight matrices `wi`, `wh` (64 × 192) and the two biases `bi`, `bh` (1 × 192).  It forms the two
  pre-activation blocks `a · wi + bi` and `h · wh + bh` (2000 × 192; the products into a zero accumulator, the
  operands narrowed to bf16 first, which changes nothing on extended reals; the bias row repeated down the rows), cuts
  each into its three 64-column gates, and combines them pointwise.  Entry `(p, q)` of what it stores is therefore
  the GRU cell of row `p`'s two pre-activation rows and the old entry `h (p, q)`:

      payload (p, q) = cell (c ↦ Σ_k a (p, k) · wi (k, c) + bi (0, c)) (c ↦ Σ_k h (p, k) · wh (k, c) + bh (0, c)) (h (p, q)) q.

  The one step that is not pointwise is the matrix product: at `(p, c)` it is the sum over the contracted axis of
  length 64 (`matmul_entry`), by re-indexing the product's own contraction index by `Fin 64`.
-/
import proofs.«135164_j62826781606047_1_alg».proof.Proof.Gen.KernelIdeal.Skeleton
import proofs.«135164_j62826781606047_1_alg».proof.Proof.GruCell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.Gru

/-! ## The block product at an entry -/

theorem dot_lhs_row (j : S2000x192.Idx) (u : dot_S2000x64_S64x192_S2000x192_1_0_0_1_n_n.contr.Idx) :
    (dot_S2000x64_S64x192_S2000x192_1_0_0_1_n_n.lhsIdx j u 0).val = (j 0).val := by
  unfold DotDims.lhsIdx
  rw [dif_neg (show ¬(0 : Fin S2000x64.rank) ∈ dot_S2000x64_S64x192_S2000x192_1_0_0_1_n_n.lhsBatch by decide), dif_pos (show (0 : Fin S2000x64.rank) ∈ dot_S2000x64_S64x192_S2000x192_1_0_0_1_n_n.lhsNonContracting by decide)]
  rfl
theorem dot_lhs_col (j : S2000x192.Idx) (u : dot_S2000x64_S64x192_S2000x192_1_0_0_1_n_n.contr.Idx) :
    (dot_S2000x64_S64x192_S2000x192_1_0_0_1_n_n.lhsIdx j u 1).val = (u ⟨0, by decide⟩).val :=
  dot_S2000x64_S64x192_S2000x192_1_0_0_1_n_n.lhsIdx_val_of_single rfl j u
theorem dot_rhs_row (j : S2000x192.Idx) (u : dot_S2000x64_S64x192_S2000x192_1_0_0_1_n_n.contr.Idx) :
    (dot_S2000x64_S64x192_S2000x192_1_0_0_1_n_n.rhsIdx j u 0).val = (u ⟨0, by decide⟩).val :=
  dot_S2000x64_S64x192_S2000x192_1_0_0_1_n_n.rhsIdx_val_of_single rfl j u
theorem dot_rhs_col (j : S2000x192.Idx) (u : dot_S2000x64_S64x192_S2000x192_1_0_0_1_n_n.contr.Idx) :
    (dot_S2000x64_S64x192_S2000x192_1_0_0_1_n_n.rhsIdx j u 1).val = (j 1).val := by
  unfold DotDims.rhsIdx
  rw [dif_neg (show ¬(1 : Fin S64x192.rank) ∈ dot_S2000x64_S64x192_S2000x192_1_0_0_1_n_n.rhsBatch by decide), dif_pos (show (1 : Fin S64x192.rank) ∈ dot_S2000x64_S64x192_S2000x192_1_0_0_1_n_n.rhsNonContracting by decide)]
  rfl

/-- Entry `(p, c)` of a 2000 × 64 block times a 64 × 192 block, accumulated into zero, is the inner product of row
    `p` of the first with column `c` of the second. -/
theorem matmul_entry (x : FVec Ideal S2000x64 .bf16) (w : FVec Ideal S64x192 .bf16) (p : Fin 2000) (c : Fin 192) :
    matmul dot_S2000x64_S64x192_S2000x192_1_0_0_1_n_n none x w (constant (F := Ideal) S2000x192 .f32 0x00000000#32) (ix2 p c)
      = ∑ k : Fin 64, x (ix2 p k) * w (ix2 k c) := by
  simp only [matmul]
  rw [Ideal.matmul_constant_zero_apply, ← Equiv.sum_comp (contrEquiv1 dot_S2000x64_S64x192_S2000x192_1_0_0_1_n_n 64 rfl rfl).symm]
  refine Finset.sum_congr rfl fun k _ => ?_
  have hk := contrEquiv1_symm_val dot_S2000x64_S64x192_S2000x192_1_0_0_1_n_n 64 rfl rfl k
  have el : dot_S2000x64_S64x192_S2000x192_1_0_0_1_n_n.lhsIdx (ix2 p c) ((contrEquiv1 dot_S2000x64_S64x192_S2000x192_1_0_0_1_n_n 64 rfl rfl).symm k) = ix2 p k := funext fun a => Fin.ext (by
    match a with
    | ⟨0, _⟩ => exact dot_lhs_row _ _
    | ⟨1, _⟩ => exact (dot_lhs_col _ _).trans hk)
  have er : dot_S2000x64_S64x192_S2000x192_1_0_0_1_n_n.rhsIdx (ix2 p c) ((contrEquiv1 dot_S2000x64_S64x192_S2000x192_1_0_0_1_n_n 64 rfl rfl).symm k) = ix2 k c := funext fun a => Fin.ext (by
    match a with
    | ⟨0, _⟩ => exact (dot_rhs_row _ _).trans hk
    | ⟨1, _⟩ => exact dot_rhs_col _ _)
  rw [el, er]

/-! ## A pre-activation block at an entry -/

/-- Entry `(p, c)` of `x · w + b` (the bias row `b` repeated down the 2000 rows). -/
theorem preact_entry (x : FVec Ideal S2000x64 .f32) (w : FVec Ideal S64x192 .f32) (b : FVec Ideal S1x192 .f32) (p : Fin 2000) (c : Fin 192) :
    addf (matmul dot_S2000x64_S64x192_S2000x192_1_0_0_1_n_n none (truncf .bf16 x Facts₀.bitsLt_bf16_f32) (truncf .bf16 w Facts₀.bitsLt_bf16_f32)
        (constant (F := Ideal) S2000x192 .f32 0x00000000#32))
      (broadcastTo S2000x192 b Facts₀.broadcasts_S1x192_S2000x192) (ix2 p c)
      = (∑ k : Fin 64, x (ix2 p k) * w (ix2 k c)) + b (ix2 (0 : Fin 1) c) := by
  rw [addf_apply, matmul_entry, broadcastTo_1b_ab_apply]
  rfl

/-! ## The stored value at an entry -/

theorem logistic_entry {s : Shape} {φ : FTy} (x : FVec Ideal s φ) (i : s.Idx) : logistic x i = Ideal.logistic (x i) := rfl
theorem tanh_entry {s : Shape} {φ : FTy} (x : FVec Ideal s φ) (i : s.Idx) : tanh x i = Ideal.tanh (x i) := rfl

/-- Entry `(p, q)` of what the body stores is the GRU cell of row `p`'s two pre-activation rows. -/
theorem payload_entry (a h : Vec Ideal S2000x64 .f32) (wi wh : Vec Ideal S64x192 .f32) (bi bh : Vec Ideal S1x192 .f32)
    (p : Fin 2000) (q : Fin 64) :
    k0_pay1 a h wi wh bi bh (ix2 p q)
      = cell (fun c => (∑ k : Fin 64, a (ix2 p k) * wi (ix2 k c)) + bi (ix2 (0 : Fin 1) c))
          (fun c => (∑ k : Fin 64, h (ix2 p k) * wh (ix2 k c)) + bh (ix2 (0 : Fin 1) c)) (h (ix2 p q)) q := by
  unfold k0_pay1 cell
  simp only [shapeCast_self, addf_apply (s := S2000x64), mulf_apply, subf_apply, logistic_entry, tanh_entry, broadcast_apply,
    slice2_axis1_eq, preact_entry]
  rfl

/-! ## From the block to the arrays -/

/-- When row `p` of the two row blocks is row `r` of two arrays `A`, `H`, the weight blocks are two matrices transposed and
    the bias rows are two bias vectors, entry `(p, q)` of what the body stores is entry `(r, q)` of the arrays' GRU update. -/
theorem payload_is_update (A H : (⟨2, ![100000, 64]⟩ : Shape).Idx → EReal) (Wih Whh : (⟨2, ![192, 64]⟩ : Shape).Idx → EReal)
    (bih bhh : (⟨1, ![192]⟩ : Shape).Idx → EReal)
    (a h : Vec Ideal S2000x64 .f32) (wi wh : Vec Ideal S64x192 .f32) (bi bh : Vec Ideal S1x192 .f32)
    (p : Fin 2000) (q : Fin 64) (r : Fin 100000)
    (ha : ∀ k : Fin 64, a (ix2 p k) = A (ix2 r k)) (hh : ∀ k : Fin 64, h (ix2 p k) = H (ix2 r k))
    (hwi : ∀ (k : Fin 64) (g : Fin 192), wi (ix2 k g) = Wih (ix2 g k)) (hwh : ∀ (k : Fin 64) (g : Fin 192), wh (ix2 k g) = Whh (ix2 g k))
    (hbi : ∀ g : Fin 192, bi (ix2 (0 : Fin 1) g) = bih (ix1 g)) (hbh : ∀ g : Fin 192, bh (ix2 (0 : Fin 1) g) = bhh (ix1 g)) :
    k0_pay1 a h wi wh bi bh (ix2 p q) = update A H Wih Whh bih bhh (ix2 r q) := by
  rw [payload_entry, update_ix2]
  simp only [ha, hh, hwi, hwh, hbi, hbh]
  rfl

end Cert.KernelIdeal.BlockValue

end
-- ==== Proof.EntryArrays.lean ====
/-
  The arrays the kernel's region finds, read at an entry.

  Before the region the host program writes five of the six arrays the region's input windows stage: the aggregated
  messages (the scatter-add of the edge features by receiver index, into zeros), the two weight matrices transposed
  to 64 × 192, and the two biases reshaped to one row of 192.  Entry `(k, c)` of a transposed weight matrix is entry
  `(c, k)` of the matrix; entry `(0, c)` of a reshaped bias is entry `c` of the bias.  The aggregated messages are
  named (`aggr`) and never opened: the reference program computes the same array by the same operation.
-/
import proofs.«135164_j62826781606047_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.EntryArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated messages: the edge features added, row by row, into the row their receiver index names, from zeros. -/
def aggr (c : Dev nD) : S100000x64.Idx → EReal :=
  Host.scatterAdd scatter_S100000x64_S1600000x1_S1600000x64_1_0_0_1
    (broadcastInDim S100000x64 ![] Facts₀.bcast_S_S100000x64 (constant (F := Ideal) S_ .f32 0x00000000#32))
    (broadcastInDim S1600000x1 ![0] Facts₀.bcast_S1600000_S1600000x1_0 (m ((c.tc : Thread nD τ).loc main_arg2)))
    (m ((c.tc : Thread nD τ).loc main_arg0))

/-- The region finds the aggregated messages in the first window's array. -/
theorem entry_aggr (c : Dev nD) : (V m c main_v2 : S100000x64.Idx → EReal) = aggr m c := by
  dsimp only [Gen.V, Gen.hostOps0]; after_results; rfl

/-- The input weights as the region finds them: the argument transposed. -/
theorem entry_wih (c : Dev nD) : (V m c main_v3 : S64x192.Idx → EReal)
    = transpose S64x192 [1, 0] (m ((c.tc : Thread nD τ).loc main_arg3)) Facts₀.transposes_S192x64_S64x192_1_0 := by
  dsimp only [Gen.V, Gen.hostOps0]; after_results

/-- The hidden weights as the region finds them: the argument transposed. -/
theorem entry_whh (c : Dev nD) : (V m c main_v4 : S64x192.Idx → EReal)
    = transpose S64x192 [1, 0] (m ((c.tc : Thread nD τ).loc main_arg4)) Facts₀.transposes_S192x64_S64x192_1_0 := by
  dsimp only [Gen.V, Gen.hostOps0]; after_results

/-- The input bias as the region finds it: the argument as one row. -/
theorem entry_bih (c : Dev nD) : (V m c main_v5 : S1x192.Idx → EReal)
    = shapeCast S1x192 (m ((c.tc : Thread nD τ).loc main_arg5)) Facts₀.shapeCasts_S192_S1x192 := by
  dsimp only [Gen.V, Gen.hostOps0]; after_results; rfl

/-- The hidden bias as the region finds it: the argument as one row. -/
theorem entry_bhh (c : Dev nD) : (V m c main_v6 : S1x192.Idx → EReal)
    = shapeCast S1x192 (m ((c.tc : Thread nD τ).loc main_arg6)) Facts₀.shapeCasts_S192_S1x192 := by
  dsimp only [Gen.V, Gen.hostOps0]; after_results; rfl

/-- Entry `(k, c)` of the transposed input weights is entry `(c, k)` of the argument. -/
theorem wih_entry (c : Dev nD) (k : Fin 64) (g : Fin 192) :
    (V m c main_v3 : S64x192.Idx → EReal) (ix2 k g) = (m ((c.tc : Thread nD τ).loc main_arg3) : S192x64.Idx → EReal) (ix2 g k) := by
  rw [entry_wih]; exact transpose_ix2_apply _ _ k g

/-- Entry `(k, c)` of the transposed hidden weights is entry `(c, k)` of the argument. -/
theorem whh_entry (c : Dev nD) (k : Fin 64) (g : Fin 192) :
    (V m c main_v4 : S64x192.Idx → EReal) (ix2 k g) = (m ((c.tc : Thread nD τ).loc main_arg4) : S192x64.Idx → EReal) (ix2 g k) := by
  rw [entry_whh]; exact transpose_ix2_apply _ _ k g

/-- Entry `(0, c)` of the input bias row is entry `c` of the argument. -/
theorem bih_entry (c : Dev nD) (g : Fin 192) :
    (V m c main_v5 : S1x192.Idx → EReal) (ix2 (0 : Fin 1) g) = (m ((c.tc : Thread nD τ).loc main_arg5) : S192.Idx → EReal) (ix1 g) := by
  rw [entry_bih]; exact shapeCast_a_1a_apply _ _ 0 g

/-- Entry `(0, c)` of the hidden bias row is entry `c` of the argument. -/
theorem bhh_entry (c : Dev nD) (g : Fin 192) :
    (V m c main_v6 : S1x192.Idx → EReal) (ix2 (0 : Fin 1) g) = (m ((c.tc : Thread nD τ).loc main_arg6) : S192.Idx → EReal) (ix1 g) := by
  rw [entry_bhh]; exact shapeCast_a_1a_apply _ _ 0 g

end Cert.KernelIdeal.EntryArrays

end
-- ==== Proof.KernelUpdate.lean ====
/-
  The kernel's result array is the GRU update of the arrays its region finds.

  The grid has 50 points.  At point `t` the two row-tiled inputs (aggregated messages, hidden states) and the output
  stage block `t`: rows `2000 t … 2000 t + 1999`, all 64 columns; the two weight matrices and the two bias rows are
  one block each, the same at every point (`index_maps`, decided over the grid).  So row `p` of a row block at point
  `t` is row `2000 t + p` of its array (`row`), and what point `t` writes back — the body's stored value of its six
  input blocks — is block `t` of one whole-array function, the GRU update (`flushed_is_block`).  Every row `i` of the
  array lies in the block of point `i / 2000` (`covered`), so after the run the array is that function.
-/
import proofs.«135164_j62826781606047_1_alg».proof.Proof.Gen.KernelIdeal.Value
import proofs.«135164_j62826781606047_1_alg».proof.Proof.BlockCell
import proofs.«135164_j62826781606047_1_alg».proof.Proof.EntryArrays

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.Gru
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps over the 50 grid points: the row-tiled windows are at block `(t, 0)`, the others at `(0, 0)`. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 50 := Nat.lt_of_lt_of_eq t.isLt (N_0 : cfg0.N = 50)

/-- Row `p` of point `t`'s row block is row `2000 t + p` of the array. -/
def row (t : Fin cfg0.N) (p : Fin 2000) : Fin 100000 :=
  ⟨t.val * 2000 + p.val, by have := point_lt t; have := p.isLt; omega⟩

/-! ## Each window's block read at an entry, for any array

  Stated for an arbitrary array so that nothing about the array's contents is ever consulted. -/

theorem read_rows0 (A : S100000x64.Idx → EReal) (t : Fin cfg0.N) (p : Fin 2000) (k : Fin 64) :
    ((cfg0.win 0).blk t).view.read (Elt Ideal) A (ix2 p k) = A (ix2 (row t p) k) := by
  obtain ⟨e0, e1, -⟩ := index_maps t
  rw [View.read_apply]
  refine congrArg A (funext fun a => Fin.ext ?_)
  match a with
  | ⟨0, _⟩ => show win0_0.index t 0 * 2000 + 1 * p.val = t.val * 2000 + p.val; rw [e0]; omega
  | ⟨1, _⟩ => show win0_0.index t 1 * 64 + 1 * k.val = k.val; rw [e1]; omega

theorem read_rows1 (A : S100000x64.Idx → EReal) (t : Fin cfg0.N) (p : Fin 2000) (k : Fin 64) :
    ((cfg0.win 1).blk t).view.read (Elt Ideal) A (ix2 p k) = A (ix2 (row t p) k) := by
  obtain ⟨-, -, e0, e1, -⟩ := index_maps t
  rw [View.read_apply]
  refine congrArg A (funext fun a => Fin.ext ?_)
  match a with
  | ⟨0, _⟩ => show win0_1.index t 0 * 2000 + 1 * p.val = t.val * 2000 + p.val; rw [e0]; omega
  | ⟨1, _⟩ => show win0_1.index t 1 * 64 + 1 * k.val = k.val; rw [e1]; omega

theorem read_whole2 (W : S64x192.Idx → EReal) (t : Fin cfg0.N) (k : Fin 64) (g : Fin 192) :
    ((cfg0.win 2).blk t).view.read (Elt Ideal) W (ix2 k g) = W (ix2 k g) := by
  obtain ⟨-, -, -, -, e0, e1, -⟩ := index_maps t
  rw [View.read_apply]
  refine congrArg W (funext fun a => Fin.ext ?_)
  match a with
  | ⟨0, _⟩ => show win0_2.index t 0 * 64 + 1 * k.val = k.val; rw [e0]; omega
  | ⟨1, _⟩ => show win0_2.index t 1 * 192 + 1 * g.val = g.val; rw [e1]; omega

theorem read_whole3 (W : S64x192.Idx → EReal) (t : Fin cfg0.N) (k : Fin 64) (g : Fin 192) :
    ((cfg0.win 3).blk t).view.read (Elt Ideal) W (ix2 k g) = W (ix2 k g) := by
  obtain ⟨-, -, -, -, -, -, e0, e1, -⟩ := index_maps t
  rw [View.read_apply]
  refine congrArg W (funext fun a => Fin.ext ?_)
  match a with
  | ⟨0, _⟩ => show win0_3.index t 0 * 64 + 1 * k.val = k.val; rw [e0]; omega
  | ⟨1, _⟩ => show win0_3.index t 1 * 192 + 1 * g.val = g.val; rw [e1]; omega

theorem read_whole4 (B : S1x192.Idx → EReal) (t : Fin cfg0.N) (g : Fin 192) :
    ((cfg0.win 4).blk t).view.read (Elt Ideal) B (ix2 (0 : Fin 1) g) = B (ix2 (0 : Fin 1) g) := by
  obtain ⟨-, -, -, -, -, -, -, -, e0, e1, -⟩ := index_maps t
  rw [View.read_apply]
  refine congrArg B (funext fun a => Fin.ext ?_)
  match a with
  | ⟨0, _⟩ => show win0_4.index t 0 * 1 + 1 * 0 = 0; rw [e0]
  | ⟨1, _⟩ => show win0_4.index t 1 * 192 + 1 * g.val = g.val; rw [e1]; omega

theorem read_whole5 (B : S1x192.Idx → EReal) (t : Fin cfg0.N) (g : Fin 192) :
    ((cfg0.win 5).blk t).view.read (Elt Ideal) B (ix2 (0 : Fin 1) g) = B (ix2 (0 : Fin 1) g) := by
  obtain ⟨-, -, -, -, -, -, -, -, -, -, e0, e1, -⟩ := index_maps t
  rw [View.read_apply]
  refine congrArg B (funext fun a => Fin.ext ?_)
  match a with
  | ⟨0, _⟩ => show win0_5.index t 0 * 1 + 1 * 0 = 0; rw [e0]
  | ⟨1, _⟩ => show win0_5.index t 1 * 192 + 1 * g.val = g.val; rw [e1]; omega

/-! ## Each input block at an entry -/

theorem aggr_block (c : Dev nD) (t : Fin cfg0.N) (p : Fin 2000) (k : Fin 64) :
    (iblk m c 0 t : Vec Ideal S2000x64 .f32) (ix2 p k) = (V m c main_v2 : S100000x64.Idx → EReal) (ix2 (row t p) k) :=
  read_rows0 (V m c main_v2) t p k

theorem hidden_block (c : Dev nD) (t : Fin cfg0.N) (p : Fin 2000) (k : Fin 64) :
    (iblk m c 1 t : Vec Ideal S2000x64 .f32) (ix2 p k)
      = (m ((c.tc : Thread nD τ).loc main_arg1) : S100000x64.Idx → EReal) (ix2 (row t p) k) :=
  (read_rows1 (V m c main_arg1) t p k).trans (congrFun (V_main_arg1 m c) _)

theorem wih_block (c : Dev nD) (t : Fin cfg0.N) (k : Fin 64) (g : Fin 192) :
    (iblk m c 2 t : Vec Ideal S64x192 .f32) (ix2 k g)
      = (m ((c.tc : Thread nD τ).loc main_arg3) : S192x64.Idx → EReal) (ix2 g k) :=
  (read_whole2 (V m c main_v3) t k g).trans (EntryArrays.wih_entry m c k g)

theorem whh_block (c : Dev nD) (t : Fin cfg0.N) (k : Fin 64) (g : Fin 192) :
    (iblk m c 3 t : Vec Ideal S64x192 .f32) (ix2 k g)
      = (m ((c.tc : Thread nD τ).loc main_arg4) : S192x64.Idx → EReal) (ix2 g k) :=
  (read_whole3 (V m c main_v4) t k g).trans (EntryArrays.whh_entry m c k g)

theorem bih_block (c : Dev nD) (t : Fin cfg0.N) (g : Fin 192) :
    (iblk m c 4 t : Vec Ideal S1x192 .f32) (ix2 (0 : Fin 1) g)
      = (m ((c.tc : Thread nD τ).loc main_arg5) : S192.Idx → EReal) (ix1 g) :=
  (read_whole4 (V m c main_v5) t g).trans (EntryArrays.bih_entry m c g)

theorem bhh_block (c : Dev nD) (t : Fin cfg0.N) (g : Fin 192) :
    (iblk m c 5 t : Vec Ideal S1x192 .f32) (ix2 (0 : Fin 1) g)
      = (m ((c.tc : Thread nD τ).loc main_arg6) : S192.Idx → EReal) (ix1 g) :=
  (read_whole5 (V m c main_v6) t g).trans (EntryArrays.bhh_entry m c g)

/-! ## What a point writes back, and the array after the run -/

/-- The result: the GRU update of the aggregated messages the region finds and of the argument arrays. -/
abbrev result (c : Dev nD) : S100000x64.Idx → EReal :=
  update (V m c main_v2 : S100000x64.Idx → EReal) (m ((c.tc : Thread nD τ).loc main_arg1)) (m ((c.tc : Thread nD τ).loc main_arg3))
    (m ((c.tc : Thread nD τ).loc main_arg4)) (m ((c.tc : Thread nD τ).loc main_arg5)) (m ((c.tc : Thread nD τ).loc main_arg6))

/-- The geometry of the write-back, for any stored block `P` and any array `R`: if entry `(p, q)` of `P` is entry
    `(2000 t + p, q)` of `R` for all `p`, `q`, then what point `t` writes back of `P` is block `t` of `R`. -/
theorem written_is_block (P : S2000x64.Idx → EReal) (R : S100000x64.Idx → EReal) (t : Fin cfg0.N)
    (hPR : ∀ (p : Fin 2000) (q : Fin 64), P (ix2 p q) = R (ix2 (row t p) q)) :
    (cfg0.win 6).cut (grid0.coords t) P = ((cfg0.win 6).blk t).view.read (Elt Ideal) R := by
  obtain ⟨-, -, -, -, -, -, -, -, -, -, -, -, e0, e1⟩ := index_maps t
  funext y
  rw [View.read_apply]
  have hy0 : (y 0).val < 2000 := (y 0).isLt
  have hy1 : (y 1).val < 64 := (y 1).isLt
  show P ((cfg0.win 6).xinj (grid0.coords t) y) = R (((cfg0.win 6).blk t).view.emb y)
  have hx : (cfg0.win 6).xinj (grid0.coords t) y = ix2 (⟨(y 0).val, hy0⟩ : Fin 2000) (⟨(y 1).val, hy1⟩ : Fin 64) :=
    funext fun a => Fin.ext (by match a with | ⟨0, _⟩ => rfl | ⟨1, _⟩ => rfl)
  have hemb : ((cfg0.win 6).blk t).view.emb y = ix2 (row t ⟨(y 0).val, hy0⟩) (⟨(y 1).val, hy1⟩ : Fin 64) := by
    funext a
    apply Fin.ext
    match a with
    | ⟨0, _⟩ => show win0_6.index t 0 * 2000 + 1 * (y 0).val = t.val * 2000 + (y 0).val; rw [e0]; omega
    | ⟨1, _⟩ => show win0_6.index t 1 * 64 + 1 * (y 1).val = (y 1).val; rw [e1]; omega
  rw [hx, hemb]
  exact hPR _ _

/-- What point `t` writes back is block `t` of the result. -/
theorem flushed_is_block (c : Dev nD) (t : Fin cfg0.N) :
    (dats m 0 c).flushed 6 t = ((cfg0.win 6).blk t).view.read (Elt Ideal) (result m c) := by
  rw [flushed6]
  unfold out0_6
  rw [View.canon_unit_zero origin]
  simp only [View.ld_unit_zero (S := S2000x64) origin, View.ld_unit_zero (S := S64x192) origin, View.ld_unit_zero (S := S1x192) origin]
  exact written_is_block
    (k0_pay1 (iblk m c 0 t) (iblk m c 1 t) (iblk m c 2 t) (iblk m c 3 t) (iblk m c 4 t) (iblk m c 5 t)) (result m c) t
    (fun p q => BlockValue.payload_is_update (V m c main_v2) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6))
      (iblk m c 0 t) (iblk m c 1 t) (iblk m c 2 t) (iblk m c 3 t) (iblk m c 4 t) (iblk m c 5 t) p q (row t p)
      (aggr_block m c t p) (hidden_block m c t p) (wih_block m c t) (whh_block m c t) (bih_block m c t) (bhh_block m c t))

/-- An index of the array is in point `t`'s block iff each coordinate is in the block's range on its axis. -/
theorem mem_block (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v7).slice (win0_6.rect t)).set ↔ _
  rw [View.set_slice_whole, Rect.mem_set_unit]
  exact Iff.rfl

/-- Every index of the array is in the block of the point its row falls in. -/
theorem covered (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, e0, e1⟩ := index_maps t
  refine ⟨t, flush0_6 t, ?_⟩
  rw [mem_block]
  intro a
  match a with
  | ⟨0, _⟩ => show win0_6.index t 0 * 2000 ≤ (i 0).val ∧ (i 0).val < win0_6.index t 0 * 2000 + 2000; rw [e0, ht]; omega
  | ⟨1, _⟩ => show win0_6.index t 1 * 64 ≤ (i 1).val ∧ (i 1).val < win0_6.index t 1 * 64 + 64; rw [e1]; omega

/-- After the run the output array is the result. -/
theorem final (c : Dev nD) : (dats m 0 c).arrAt 6 cfg0.N = result m c :=
  (dats m 0 c).arrAt_eq_of_cover 6 (result m c) (fun t _ => flushed_is_block m c t) covered

/-- The kernel's run: the output array ends at the result, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.ArrayValue

end
-- ==== Proof.RefUpdate.lean ====
/-
  The reference program's result is the GRU update of its arrays, entry by entry.

  The reference forms `aggr · w_ihᵀ + b_ih` and `nodes · w_hhᵀ + b_hh` as whole 100000 × 192 arrays (the transposes and
  the bias rows are layout operations: entry `(k, c)` of a transposed weight matrix is entry `(c, k)` of the matrix,
  and the bias row is the bias vector under every row), cuts each into its three gates of 64 columns, and combines
  them pointwise with the logistic function spelled as `1 / (1 + e^(−x))`.  Read at entry `(r, j)` that is the cell of
  row `r`'s two pre-activation rows (`Cert.Gru.update`).  The aggregated messages `aggr` — a scatter-add of the
  edge features, whose entries depend on the receiver indices' values — are never opened: they enter as one array.
-/
import proofs.«135164_j62826781606047_1_alg».proof.Proof.Gen.ReferenceIdeal.Read
import proofs.«135164_j62826781606047_1_alg».proof.Proof.GruCell

noncomputable section

namespace Cert.ReferenceIdeal.RefValue

open Cert.ReferenceIdeal Cert.ReferenceIdeal.Read Idealize.ShloMosaic Idealize.ShloMosaic.ValueIdx Cert.Gru

/-! ## The index maps of the layout operations, at explicit coordinates -/

theorem lhs_index_gi (r : Fin 100000) (c : Fin 192) (k : Fin 64) : lidx_main_v4 (ix2 r c) k = ix2 r k :=
  funext fun a => Fin.ext (by match a with | ⟨0, _⟩ => rfl | ⟨1, _⟩ => rfl)
theorem rhs_index_gi (r : Fin 100000) (c : Fin 192) (k : Fin 64) : idx_main_v3 (ridx_main_v4 (ix2 r c) k) = ix2 c k :=
  funext fun a => Fin.ext (by match a with | ⟨0, _⟩ => rfl | ⟨1, _⟩ => rfl)
theorem bias_index_gi (r : Fin 100000) (c : Fin 192) : idx_main_v5 (idx_main_v6 (ix2 r c)) = ix1 c :=
  funext fun a => Fin.ext (by match a with | ⟨0, _⟩ => rfl)
theorem lhs_index_gh (r : Fin 100000) (c : Fin 192) (k : Fin 64) : lidx_main_v9 (ix2 r c) k = ix2 r k :=
  funext fun a => Fin.ext (by match a with | ⟨0, _⟩ => rfl | ⟨1, _⟩ => rfl)
theorem rhs_index_gh (r : Fin 100000) (c : Fin 192) (k : Fin 64) : idx_main_v8 (ridx_main_v9 (ix2 r c) k) = ix2 c k :=
  funext fun a => Fin.ext (by match a with | ⟨0, _⟩ => rfl | ⟨1, _⟩ => rfl)
theorem bias_index_gh (r : Fin 100000) (c : Fin 192) : idx_main_v10 (idx_main_v11 (ix2 r c)) = ix1 c :=
  funext fun a => Fin.ext (by match a with | ⟨0, _⟩ => rfl)

/-- The six gate cuts read the pre-activation arrays at column `o + j`, `o` the gate's first column. -/
theorem gate_index_v13 (r : Fin 100000) (j : Fin 64) : idx_main_v13 (ix2 r j) = ix2 r (col 0 (by decide) j) :=
  funext fun a => Fin.ext (by
    match a with
    | ⟨0, _⟩ => rfl
    | ⟨1, _⟩ => show j.val = 0 + j.val; omega)
theorem gate_index_v14 (r : Fin 100000) (j : Fin 64) : idx_main_v14 (ix2 r j) = ix2 r (col 64 (by decide) j) :=
  funext fun a => Fin.ext (by match a with | ⟨0, _⟩ => rfl | ⟨1, _⟩ => rfl)
theorem gate_index_v15 (r : Fin 100000) (j : Fin 64) : idx_main_v15 (ix2 r j) = ix2 r (col 128 (by decide) j) :=
  funext fun a => Fin.ext (by match a with | ⟨0, _⟩ => rfl | ⟨1, _⟩ => rfl)
theorem gate_index_v16 (r : Fin 100000) (j : Fin 64) : idx_main_v16 (ix2 r j) = ix2 r (col 0 (by decide) j) :=
  funext fun a => Fin.ext (by
    match a with
    | ⟨0, _⟩ => rfl
    | ⟨1, _⟩ => show j.val = 0 + j.val; omega)
theorem gate_index_v17 (r : Fin 100000) (j : Fin 64) : idx_main_v17 (ix2 r j) = ix2 r (col 64 (by decide) j) :=
  funext fun a => Fin.ext (by match a with | ⟨0, _⟩ => rfl | ⟨1, _⟩ => rfl)
theorem gate_index_v18 (r : Fin 100000) (j : Fin 64) : idx_main_v18 (ix2 r j) = ix2 r (col 128 (by decide) j) :=
  funext fun a => Fin.ext (by match a with | ⟨0, _⟩ => rfl | ⟨1, _⟩ => rfl)

/-! ## The two pre-activation arrays at an entry -/

/-- Entry `(r, c)` of `aggr · w_ihᵀ + b_ih`. -/
theorem gi_entry (x0 : (⟨S1600000x64, .f32⟩ : BufTy).Contents (Elt Ideal)) (x2 : (⟨S1600000, .i32⟩ : BufTy).Contents (Elt Ideal))
    (x3 : (⟨S192x64, .f32⟩ : BufTy).Contents (Elt Ideal)) (x5 : (⟨S192, .f32⟩ : BufTy).Contents (Elt Ideal)) (r : Fin 100000) (c : Fin 192) :
    val_main_v7 (F := Ideal) x0 x2 x3 x5 (ix2 r c) = preact (val_main_v2 (F := Ideal) x0 x2) x3 x5 r c := by
  rw [val_main_v7_apply, val_main_v4_apply, val_main_v6_apply, val_main_v5_apply, bias_index_gi]
  simp only [val_main_v3_apply, lhs_index_gi, rhs_index_gi]
  rfl

/-- Entry `(r, c)` of `nodes · w_hhᵀ + b_hh`. -/
theorem gh_entry (x1 : (⟨S100000x64, .f32⟩ : BufTy).Contents (Elt Ideal))
    (x4 : (⟨S192x64, .f32⟩ : BufTy).Contents (Elt Ideal)) (x6 : (⟨S192, .f32⟩ : BufTy).Contents (Elt Ideal)) (r : Fin 100000) (c : Fin 192) :
    val_main_v12 (F := Ideal) x1 x4 x6 (ix2 r c) = preact x1 x4 x6 r c := by
  rw [val_main_v12_apply, val_main_v9_apply, val_main_v11_apply, val_main_v10_apply, bias_index_gh]
  simp only [val_main_v8_apply, lhs_index_gh, rhs_index_gh]
  rfl

/-! ## The three gates at an entry -/

/-- The reset gate at `(r, j)`: the logistic function of the two pre-activations' first gate. -/
theorem reset_entry (x0 : (⟨S1600000x64, .f32⟩ : BufTy).Contents (Elt Ideal)) (x1 : (⟨S100000x64, .f32⟩ : BufTy).Contents (Elt Ideal))
    (x2 : (⟨S1600000, .i32⟩ : BufTy).Contents (Elt Ideal)) (x3 x4 : (⟨S192x64, .f32⟩ : BufTy).Contents (Elt Ideal))
    (x5 x6 : (⟨S192, .f32⟩ : BufTy).Contents (Elt Ideal)) (r : Fin 100000) (j : Fin 64) :
    val_main_v25 (F := Ideal) x0 x1 x2 x3 x4 x5 x6 (ix2 r j)
      = Ideal.logistic (preact (val_main_v2 (F := Ideal) x0 x2) x3 x5 r (col 0 (by decide) j) + preact x1 x4 x6 r (col 0 (by decide) j)) := by
  rw [val_main_v25_apply, val_main_v24_apply, val_main_cst_1_apply, val_main_v23_apply, val_main_v22_apply, val_main_cst_0_apply,
    val_main_v21_apply, val_main_v20_apply, val_main_v19_apply, val_main_v13_apply, val_main_v16_apply,
    gate_index_v13, gate_index_v16, gi_entry, gh_entry]
  simp only [Ideal.hostDivf_def, Ideal.ofBits_def, Ideal.addf_def, Ideal.hostUnary_exp_def, Ideal.hostNegf_def, Ideal.negf_def,
    logistic_spelled]

/-- The update gate at `(r, j)`: the logistic function of the two pre-activations' second gate. -/
theorem update_gate_entry (x0 : (⟨S1600000x64, .f32⟩ : BufTy).Contents (Elt Ideal)) (x1 : (⟨S100000x64, .f32⟩ : BufTy).Contents (Elt Ideal))
    (x2 : (⟨S1600000, .i32⟩ : BufTy).Contents (Elt Ideal)) (x3 x4 : (⟨S192x64, .f32⟩ : BufTy).Contents (Elt Ideal))
    (x5 x6 : (⟨S192, .f32⟩ : BufTy).Contents (Elt Ideal)) (r : Fin 100000) (j : Fin 64) :
    val_main_v32 (F := Ideal) x0 x1 x2 x3 x4 x5 x6 (ix2 r j)
      = Ideal.logistic (preact (val_main_v2 (F := Ideal) x0 x2) x3 x5 r (col 64 (by decide) j) + preact x1 x4 x6 r (col 64 (by decide) j)) := by
  rw [val_main_v32_apply, val_main_v31_apply, val_main_cst_3_apply, val_main_v30_apply, val_main_v29_apply, val_main_cst_2_apply,
    val_main_v28_apply, val_main_v27_apply, val_main_v26_apply, val_main_v14_apply, val_main_v17_apply,
    gate_index_v14, gate_index_v17, gi_entry, gh_entry]
  simp only [Ideal.hostDivf_def, Ideal.ofBits_def, Ideal.addf_def, Ideal.hostUnary_exp_def, Ideal.hostNegf_def, Ideal.negf_def,
    logistic_spelled]

/-- The candidate state at `(r, j)`: the hyperbolic tangent of the third gate, the hidden part scaled by the reset gate. -/
theorem candidate_entry (x0 : (⟨S1600000x64, .f32⟩ : BufTy).Contents (Elt Ideal)) (x1 : (⟨S100000x64, .f32⟩ : BufTy).Contents (Elt Ideal))
    (x2 : (⟨S1600000, .i32⟩ : BufTy).Contents (Elt Ideal)) (x3 x4 : (⟨S192x64, .f32⟩ : BufTy).Contents (Elt Ideal))
    (x5 x6 : (⟨S192, .f32⟩ : BufTy).Contents (Elt Ideal)) (r : Fin 100000) (j : Fin 64) :
    val_main_v35 (F := Ideal) x0 x1 x2 x3 x4 x5 x6 (ix2 r j)
      = Ideal.tanh (preact (val_main_v2 (F := Ideal) x0 x2) x3 x5 r (col 128 (by decide) j)
          + Ideal.logistic (preact (val_main_v2 (F := Ideal) x0 x2) x3 x5 r (col 0 (by decide) j) + preact x1 x4 x6 r (col 0 (by decide) j))
            * preact x1 x4 x6 r (col 128 (by decide) j)) := by
  rw [val_main_v35_apply, val_main_v34_apply, val_main_v33_apply, reset_entry, val_main_v15_apply, val_main_v18_apply,
    gate_index_v15, gate_index_v18, gi_entry]
  simp only [gh_entry, Ideal.hostUnary_tanh_def, Ideal.addf_def, Ideal.mulf_def]

/-! ## The result -/

/-- The reference's last stage is the GRU update of the aggregated messages, the hidden states, the weights and the biases. -/
theorem result_eq (x0 : (⟨S1600000x64, .f32⟩ : BufTy).Contents (Elt Ideal)) (x1 : (⟨S100000x64, .f32⟩ : BufTy).Contents (Elt Ideal))
    (x2 : (⟨S1600000, .i32⟩ : BufTy).Contents (Elt Ideal)) (x3 x4 : (⟨S192x64, .f32⟩ : BufTy).Contents (Elt Ideal))
    (x5 x6 : (⟨S192, .f32⟩ : BufTy).Contents (Elt Ideal)) :
    val_main_v40 (F := Ideal) x0 x1 x2 x3 x4 x5 x6 = update (val_main_v2 (F := Ideal) x0 x2) x1 x3 x4 x5 x6 := by
  funext i
  obtain ⟨r, j, rfl⟩ : ∃ (r : Fin 100000) (j : Fin 64), i = ix2 r j := ⟨i 0, i 1, eq_ix2 i⟩
  rw [update_ix2]
  unfold cell
  rw [val_main_v40_apply, val_main_v39_apply, val_main_v38_apply, val_main_v37_apply, val_main_v36_apply, val_main_cst_4_apply,
    candidate_entry]
  simp only [update_gate_entry, Ideal.ofBits_def, Ideal.addf_def, Ideal.mulf_def, Ideal.subf_def]

end Cert.ReferenceIdeal.RefValue

end
-- ==== Proof.lean ====
/-
  A graph-network node update: edge features are summed into their receiver nodes, and each node's hidden state is
  updated by a gated recurrent unit fed with that sum.  Both programs aggregate on the host by the same scatter-add;
  the kernel then computes the gated update in a Pallas region tiled over 50 blocks of 2000 nodes, the reference as
  whole-array host operations.

  On extended reals the two results are one function of the arrays, entry by entry (`Cert.Gru.update`): entry
  `(r, j)` is the GRU cell of row `r`'s two pre-activation rows `aggr · w_ihᵀ + b_ih` and `nodes · w_hhᵀ + b_hh`.
    * The reference: its transposes, bias broadcasts and gate cuts are re-indexings, its matrix products are sums over the
      contracted axis of length 64, and its logistic function spelled `1 / (1 + e^(−x))` is the logistic function
      (Proof/RefUpdate.lean).
    * The kernel: at a grid point the body's stored value at entry `(p, q)` of its block is the same cell of the
      block-level pre-activations (the narrowing to bf16 is the identity on extended reals; Proof/BlockCell.lean); row `p`
      of block `t` is row `2000 t + p` of the array, the weight and bias windows hold the transposed matrices and the
      bias rows the host wrote before the region (Proof/EntryArrays.lean), and the 50 blocks cover the array
      (Proof/KernelUpdate.lean).
  No law of arithmetic is used beyond reading both sides at an index: the sums have the same terms in the same order, so
  the inputs' finiteness is never needed.  The aggregated messages enter both sides as one array; that the two
  programs' scatter-adds are the same operation on the same arrays is `aggr_eq`.
  The kernel's idealization rewrote no operation, so it preserves the kernel trivially; the three frames are the generated
  frame runs and the reference's generated run.
-/
import proofs.«135164_j62826781606047_1_alg».proof.Defs
import proofs.«135164_j62826781606047_1_alg».proof.Proof.Gen.Kernel
import proofs.«135164_j62826781606047_1_alg».proof.Proof.Gen.Kernel.Skeleton
import proofs.«135164_j62826781606047_1_alg».proof.Proof.Gen.Kernel.Launch
import proofs.«135164_j62826781606047_1_alg».proof.Proof.Gen.Kernel.Points
import proofs.«135164_j62826781606047_1_alg».proof.Proof.Gen.Kernel.Frame
import proofs.«135164_j62826781606047_1_alg».proof.Proof.Gen.KernelIdeal
import proofs.«135164_j62826781606047_1_alg».proof.Proof.Gen.KernelIdeal.Skeleton
import proofs.«135164_j62826781606047_1_alg».proof.Proof.Gen.KernelIdeal.Launch
import proofs.«135164_j62826781606047_1_alg».proof.Proof.Gen.KernelIdeal.Points
import proofs.«135164_j62826781606047_1_alg».proof.Proof.Gen.KernelIdeal.Frame
import proofs.«135164_j62826781606047_1_alg».proof.Proof.Gen.ReferenceIdeal
import proofs.«135164_j62826781606047_1_alg».proof.Proof.Gen.Pre_finite_inputs
import proofs.«135164_j62826781606047_1_alg».proof.Proof.Gen.KernelIdeal.Value
import proofs.«135164_j62826781606047_1_alg».proof.Proof.Gen.ReferenceIdeal.Run
import proofs.«135164_j62826781606047_1_alg».proof.Proof.Gen.ReferenceIdeal.Read
import proofs.«135164_j62826781606047_1_alg».proof.Proof.KernelUpdate
import proofs.«135164_j62826781606047_1_alg».proof.Proof.RefUpdate
import Idealize.ShloMosaic.Adequacy
import Idealize.ShloMosaic.Init

noncomputable section

namespace Cert.Proof

open Idealize.ShloMosaic Idealize.ShloMosaic.TcCoe Idealize.SL.Sem Cert.Gru

/-- The kernel program's aggregated messages are the reference program's: the same scatter-add, with the same
    dimension numbers, of the same edge features and receiver indices into the same zeros. -/
theorem aggr_eq (m : (ℓ : Loc Cert.KernelIdeal.nD Cert.KernelIdeal.τ Cert.KernelIdeal.sig) → Buf (Elt Ideal) ℓ) (c : Dev Cert.KernelIdeal.nD) :
    Cert.KernelIdeal.EntryArrays.aggr m c
      = Cert.ReferenceIdeal.Read.val_main_v2 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  unfold Cert.KernelIdeal.EntryArrays.aggr Cert.ReferenceIdeal.Read.val_main_v2 Cert.ReferenceIdeal.Read.val_main_v1
    Cert.ReferenceIdeal.Read.val_main_v0 Cert.ReferenceIdeal.Read.val_main_cst
  rfl

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing: there is no ledger entry to restate. -/
theorem preserves : Cert.preserves_Kernel_KernelIdeal := trivial

/-- From memories that agree on the arguments, the kernel's output array and the reference's result are the same GRU
    update of the same arrays. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v40_eq, Cert.ReferenceIdeal.RefValue.result_eq, h0, h1, h2, h3, h4, h5, h6,
    ← aggr_eq m c, ← Cert.KernelIdeal.EntryArrays.entry_aggr m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
